-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192 : Shape := ⟨2, ![8, 8192]⟩
abbrev S8192x8192 : Shape := ⟨2, ![8192, 8192]⟩
abbrev S8192x64 : Shape := ⟨2, ![8192, 64]⟩
abbrev S8192 : Shape := ⟨1, ![8192]⟩
abbrev S_ : Shape := ⟨0, ![]⟩

class Facts : Prop where
  bcast_S_S8x8192 : S_.BroadcastsInDim S8x8192 (![] : Fin 0 → Fin S8x8192.rank)
  reducesTo_S8x8192_S_d0_1 : S8x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8x8192 .f32) (main_arg1 : IVec S8192x8192 32) (main_arg2 : FVec F S8192x64 .f32) (main_arg3 : FVec F S8192 .f32) : IVec S_ 1 :=
  let main_v0 : FVec F S8x8192 .f32 := Host.absf main_arg0
  let main_cst : FVec F S_ .f32 := constant S_ .f32 0x7F800000#32
  let main_v1 : FVec F S8x8192 .f32 := broadcastInDim S8x8192 ![] bcast_S_S8x8192 main_cst
  let main_v2 : IVec S8x8192 1 := cmpf .olt main_v0 main_v1
  let main_c : IVec S_ 1 := constantI S_ 1 1#1
  let main_v3 : IVec S_ 1 := (fun x v => Host.reduce IntOp.andi x v reducesTo_S8x8192_S_d0_1 h_S_) main_v2 main_c
  let main_v4 : FVec F S8192x64 .f32 := Host.absf main_arg2
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8x8192 : Shape := ⟨2, ![8, 8192]⟩
abbrev S8192x8192 : Shape := ⟨2, ![8192, 8192]⟩
abbrev S8192x64 : Shape := ⟨2, ![8192, 64]⟩
abbrev S8192 : Shape := ⟨1, ![8192]⟩
abbrev S_ : Shape := ⟨0, ![]⟩
abbrev S8 : Shape := ⟨1, ![8]⟩
abbrev S8x1 : Shape := ⟨2, ![8, 1]⟩
abbrev S1x8192 : Shape := ⟨2, ![1, 8192]⟩
abbrev S256x8192 : Shape := ⟨2, ![256, 8192]⟩
abbrev S256x64 : Shape := ⟨2, ![256, 64]⟩
abbrev S1x256 : Shape := ⟨2, ![1, 256]⟩
abbrev S8x256 : Shape := ⟨2, ![8, 256]⟩
abbrev S256x64x128 : Shape := ⟨3, ![256, 64, 128]⟩
abbrev S256x64x1 : Shape := ⟨3, ![256, 64, 1]⟩

abbrev nBuf : Space → Nat
  | .hbm => 29
  | .vmem => 9
  | .smem => 0
  | _ => 0

abbrev bufTy : (tb : Table) → Fin (tcTables nBuf tb) → BufTy
  | .hbm, ⟨0, _⟩ => ⟨S8x8192, .f32⟩
  | .hbm, ⟨1, _⟩ => ⟨S8192x8192, .i32⟩
  | .hbm, ⟨2, _⟩ => ⟨S8192x64, .f32⟩
  | .hbm, ⟨3, _⟩ => ⟨S8192, .f32⟩
  | .hbm, ⟨4, _⟩ => ⟨S8x8192, .f32⟩
  | .hbm, ⟨5, _⟩ => ⟨S_, .f32⟩
  | .hbm, ⟨6, _⟩ => ⟨S8, .f32⟩
  | .hbm, ⟨7, _⟩ => ⟨S8x1, .f32⟩
  | .hbm, ⟨8, _⟩ => ⟨S_, .f32⟩
  | .hbm, ⟨9, _⟩ => ⟨S8x1, .f32⟩
  | .hbm, ⟨10, _⟩ => ⟨S8x1, .f32⟩
  | .hbm, ⟨11, _⟩ => ⟨S_, .f32⟩
  | .hbm, ⟨12, _⟩ => ⟨S8x1, .f32⟩
  | .hbm, ⟨13, _⟩ => ⟨S8x1, .f32⟩
  | .hbm, ⟨14, _⟩ => ⟨S8x8192, .f32⟩
  | .hbm, ⟨15, _⟩ => ⟨S8x8192, .f32⟩
  | .hbm, ⟨16, _⟩ => ⟨S8x8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x8192, .f32⟩
  | .hbm, ⟨21, _⟩ => ⟨S8x8192, .f32⟩
  | .hbm, ⟨22, _⟩ => ⟨S_, .f32⟩
  | .hbm, ⟨23, _⟩ => ⟨S8x8192, .f32⟩
  | .hbm, ⟨24, _⟩ => ⟨S8x8192, .f32⟩
  | .hbm, ⟨25, _⟩ => ⟨S8x8192, .f32⟩
  | .hbm, ⟨26, _⟩ => ⟨S8x8192, .f32⟩
  | .hbm, ⟨27, _⟩ => ⟨S1x8192, .f32⟩
  | .hbm, ⟨28, _⟩ => ⟨S8x8192, .f32⟩
  | .local _ .vmem, ⟨0, _⟩ => ⟨S8x8192, .f32⟩
  | .local _ .vmem, ⟨1, _⟩ => ⟨S256x8192, .i32⟩
  | .local _ .vmem, ⟨2, _⟩ => ⟨S256x8192, .i32⟩
  | .local _ .vmem, ⟨3, _⟩ => ⟨S256x64, .f32⟩
  | .local _ .vmem, ⟨4, _⟩ => ⟨S256x64, .f32⟩
  | .local _ .vmem, ⟨5, _⟩ => ⟨S1x256, .f32⟩
  | .local _ .vmem, ⟨6, _⟩ => ⟨S1x256, .f32⟩
  | .local _ .vmem, ⟨7, _⟩ => ⟨S8x256, .f32⟩
  | .local _ .vmem, ⟨8, _⟩ => ⟨S8x256, .f32⟩
  | _, _ => ⟨S8x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S8x8192_S8_d1 : S8x8192.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x8192_0_1 : S8x1.BroadcastsInDim S8x8192 (![0, 1] : Fin 2 → Fin S8x8192.rank)
  bcast_S_S8x8192 : S_.BroadcastsInDim S8x8192 (![] : Fin 0 → Fin S8x8192.rank)
  shapeCasts_S8192_S1x8192 : S8192.ShapeCasts S1x8192
  inb_S8x8192_S8x8192_0_0 : ∀ a, (![0, 0] : Fin 2 → Nat) a + S8x8192.size a ≤ S8x8192.size a
  h_S8x8192 : 0 < S8x8192.numel
  shapeCasts_S8x8192_S8x8192 : S8x8192.ShapeCasts S8x8192
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  inb_S256x64_S256x64_0_0 : ∀ a, (![0, 0] : Fin 2 → Nat) a + S256x64.size a ≤ S256x64.size a
  h_S256x64 : 0 < S256x64.numel
  shapeCasts_S256x8192_S256x64x128 : S256x8192.ShapeCasts S256x64x128
  shapeCasts_S256x64_S256x64x1 : S256x64.ShapeCasts S256x64x1
  broadcasts_S256x64x1_S256x64x128 : S256x64x1.Broadcasts S256x64x128
  shapeCasts_S256x64x128_S256x8192 : S256x64x128.ShapeCasts S256x8192
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8x256 : S1x256.Broadcasts S8x256
  inb_S8x256_S8x256_0_0 : ∀ a, (![0, 0] : Fin 2 → Nat) a + S8x256.size a ≤ S8x256.size a
  h_S8x256 : 0 < S8x256.numel
  dot_S8x8192_S256x8192_S8x256_1_1_0_0_n_n_wf : DotDims.WF S8x8192 S256x8192 S8x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x8192.size a ≤ S8x8192.size a
  hwx0_0 : ∀ i : grid0.Coords, EltTy.bits .f32 = 32 ∨ (Rect.block (s := S8x8192) S8x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .i32 = 32 ∨ (Rect.block (s := S8192x8192) S256x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S8192x64.size a
  hwx0_2 : ∀ i : grid0.Coords, EltTy.bits .f32 = 32 ∨ (Rect.block (s := S8192x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x8192.size a
  hwx0_3 : ∀ i : grid0.Coords, EltTy.bits .f32 = 32 ∨ (Rect.block (s := S1x8192) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S8x8192.size a
  hwx0_4 : ∀ i : grid0.Coords, EltTy.bits .f32 = 32 ∨ (Rect.block (s := S8x8192) S8x256.size (cc0_transform_4 i) (hinb0_4 i)).WholeWords (EltTy.packing .f32)

variable [Facts₀]

def dot_S8x8192_S256x8192_S8x256_1_1_0_0_n_n : DotDims S8x8192 S256x8192 S8x256 where
  lhsContracting := [1]
  rhsContracting := [1]
  lhsNonContracting := [0]
  rhsNonContracting := [0]
  lhsBatch := []
  rhsBatch := []
  wf := dot_S8x8192_S256x8192_S8x256_1_1_0_0_n_n_wf

abbrev win0_0 : Pipeline.Window sig grid0 :=
  Pipeline.Window.ofSpec (Memref.whole main_v12) S8x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x8192 : Shape := ⟨2, ![8, 8192]⟩
abbrev S8192x8192 : Shape := ⟨2, ![8192, 8192]⟩
abbrev S8192x64 : Shape := ⟨2, ![8192, 64]⟩
abbrev S8192 : Shape := ⟨1, ![8192]⟩
abbrev S_ : Shape := ⟨0, ![]⟩
abbrev S8 : Shape := ⟨1, ![8]⟩
abbrev S8x1 : Shape := ⟨2, ![8, 1]⟩
abbrev S8192x64x128 : Shape := ⟨3, ![8192, 64, 128]⟩
abbrev S8192x64x1 : Shape := ⟨3, ![8192, 64, 1]⟩
abbrev S1x8192 : Shape := ⟨2, ![1, 8192]⟩

abbrev nBuf : Space → Nat
  | .hbm => 37
  | .vmem => 0
  | .smem => 0
  | _ => 0

abbrev bufTy : (tb : Table) → Fin (tcTables nBuf tb) → BufTy
  | .hbm, ⟨0, _⟩ => ⟨S8x8192, .f32⟩
  | .hbm, ⟨1, _⟩ => ⟨S8192x8192, .i32⟩
  | .hbm, ⟨2, _⟩ => ⟨S8192x64, .f32⟩
  | .hbm, ⟨3, _⟩ => ⟨S8192, .f32⟩
  | .hbm, ⟨4, _⟩ => ⟨S8x8192, .f32⟩
  | .hbm, ⟨5, _⟩ => ⟨S_, .f32⟩
  | .hbm, ⟨6, _⟩ => ⟨S8, .f32⟩
  | .hbm, ⟨7, _⟩ => ⟨S8x1, .f32⟩
  | .hbm, ⟨8, _⟩ => ⟨S_, .f32⟩
  | .hbm, ⟨9, _⟩ => ⟨S8x1, .f32⟩
  | .hbm, ⟨10, _⟩ => ⟨S8x1, .f32⟩
  | .hbm, ⟨11, _⟩ => ⟨S_, .f32⟩
  | .hbm, ⟨12, _⟩ => ⟨S8x1, .f32⟩
  | .hbm, ⟨13, _⟩ => ⟨S8x1, .f32⟩
  | .hbm, ⟨14, _⟩ => ⟨S8x8192, .f32⟩
  | .hbm, ⟨15, _⟩ => ⟨S8x8192, .f32⟩
  | .hbm, ⟨16, _⟩ => ⟨S8x8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x8192, .f32⟩
  | .hbm, ⟨21, _⟩ => ⟨S8x8192, .f32⟩
  | .hbm, ⟨22, _⟩ => ⟨S_, .f32⟩
  | .hbm, ⟨23, _⟩ => ⟨S8x8192, .f32⟩
  | .hbm, ⟨24, _⟩ => ⟨S8x8192, .f32⟩
  | .hbm, ⟨25, _⟩ => ⟨S8x8192, .f32⟩
  | .hbm, ⟨26, _⟩ => ⟨S8x8192, .f32⟩
  | .hbm, ⟨27, _⟩ => ⟨S8192x64x128, .i32⟩
  | .hbm, ⟨28, _⟩ => ⟨S8192x64x128, .f32⟩
  | .hbm, ⟨29, _⟩ => ⟨S8192x64x1, .f32⟩
  | .hbm, ⟨30, _⟩ => ⟨S8192x64x128, .f32⟩
  | .hbm, ⟨31, _⟩ => ⟨S8192x64x128, .f32⟩
  | .hbm, ⟨32, _⟩ => ⟨S8192x8192, .f32⟩
  | .hbm, ⟨33, _⟩ => ⟨S8x8192, .f32⟩
  | .hbm, ⟨34, _⟩ => ⟨S1x8192, .f32⟩
  | .hbm, ⟨35, _⟩ => ⟨S8x8192, .f32⟩
  | .hbm, ⟨36, _⟩ => ⟨S8x8192, .f32⟩
  | _, _ => ⟨S8x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  reducesTo_S8x8192_S8_d1 : S8x8192.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x8192_0_1 : S8x1.BroadcastsInDim S8x8192 (![0, 1] : Fin 2 → Fin S8x8192.rank)
  bcast_S_S8x8192 : S_.BroadcastsInDim S8x8192 (![] : Fin 0 → Fin S8x8192.rank)
  shapeCasts_S8192x8192_S8192x64x128 : S8192x8192.ShapeCasts S8192x64x128
  bcast_S8192x64_S8192x64x1_0_1 : S8192x64.BroadcastsInDim S8192x64x1 (![0, 1] : Fin 2 → Fin S8192x64x1.rank)
  bcast_S8192x64x1_S8192x64x128_0_1_2 : S8192x64x1.BroadcastsInDim S8192x64x128 (![0, 1, 2] : Fin 3 → Fin S8192x64x128.rank)
  shapeCasts_S8192x64x128_S8192x8192 : S8192x64x128.ShapeCasts S8192x8192
  bcast_S8192_S1x8192_1 : S8192.BroadcastsInDim S1x8192 (![1] : Fin 1 → Fin S1x8192.rank)
  bcast_S1x8192_S8x8192_0_1 : S1x8192.BroadcastsInDim S8x8192 (![0, 1] : Fin 2 → Fin S8x8192.rank)
  dot_S8x8192_S8192x8192_S8x8192_1_1_0_0_n_n_wf : DotDims.WF S8x8192 S8192x8192 S8x8192 [1] [1] [0] [0] [] []

variable [Facts₀]

def dot_S8x8192_S8192x8192_S8x8192_1_1_0_0_n_n : DotDims S8x8192 S8192x8192 S8x8192 where
  lhsContracting := [1]
  rhsContracting := [1]
  lhsNonContracting := [0]
  rhsNonContracting := [0]
  lhsBatch := []
  rhsBatch := []
  wf := dot_S8x8192_S8192x8192_S8x8192_1_1_0_0_n_n_wf

class Facts : Prop extends Facts₀ where

variable [Facts]
-- ==== Proof.QuantLinear.lean ====
/-
  A linear layer with group-quantized weights, as ONE function of its four arrays.

  The weight matrix is stored as integer codes `q[n, k]` (n an output feature, k an input feature) together with one
  scale per output feature and per GROUP of 128 consecutive input features, `sc[n, k / 128]`. The weight the layer
  multiplies by is the code, read as a signed integer, times its group's scale:

      w[n, k] = q[n, k] · sc[n, k / 128].

  For activations `a[r, k]` (8 rows) and a bias `b[n]` the layer's output is

      out[r, n] = (∑ k, a[r, k] · w[n, k]) + b[n],

  a sum over all 8192 input features. Everything is read on the extended reals, where a float is the number it
  denotes and the arithmetic is exact; no order of summation and no tiling of the features appears in it.
-/
import Idealize.ShloMosaic.PureOps.Ideal
import Idealize.ShloMosaic.Lib.ValueIdx

noncomputable section

open scoped BigOperators

namespace Cert.QuantLinear

open Idealize.ShloMosaic Idealize.ShloMosaic.ValueIdx

/-- Input feature `k` belongs to scale group `k / 128`. -/
abbrev group (k : Fin 8192) : Fin 64 := ⟨k.val / 128, by have := k.isLt; omega⟩

/-- Input feature `k` sits at position `k % 128` inside its group. -/
abbrev lane (k : Fin 8192) : Fin 128 := ⟨k.val % 128, Nat.mod_lt _ (by decide)⟩

/-- The dequantized weight of output feature `n` at input feature `k`: the code, read as a signed integer, times the
    scale of `k`'s group. -/
def weight (q : IVec ⟨2, ![8192, 8192]⟩ 32) (sc : FVec Ideal ⟨2, ![8192, 64]⟩ .f32) (n k : Fin 8192) : EReal :=
  FloatOps.sitofp (F := Ideal) .f32 (q (ix2 n k)) * sc (ix2 n (group k))

/-- The layer: row `r` of the activations against row `n` of the dequantized weights, summed over the input
    features, plus the bias of `n`. -/
def linear (a : FVec Ideal ⟨2, ![8, 8192]⟩ .f32) (q : IVec ⟨2, ![8192, 8192]⟩ 32) (sc : FVec Ideal ⟨2, ![8192, 64]⟩ .f32)
    (b : FVec Ideal ⟨1, ![8192]⟩ .f32) : FVec Ideal ⟨2, ![8, 8192]⟩ .f32 :=
  fun i => (∑ k : Fin 8192, a (ix2 (i 0) k) * weight q sc (i 1) k) + b (ix1 (i 1))

end Cert.QuantLinear

end
-- ==== Proof.RefLinear.lean ====
/-
  The reference computes the quantized linear layer of `QuantLinear.lean`.

  Its program reshapes the codes to [8192, 64, 128] (feature k becomes group k / 128, position k % 128), converts
  them, multiplies by the scales broadcast along the position axis, reshapes back to [8192, 8192], contracts the
  activations' feature axis against the weights' feature axis and adds the bias broadcast over the rows. Read at an
  output index (r, n) through the stages' index maps this is `(∑ k, a[r, k] · (q[n, k] · sc[n, k / 128])) + b[n]`: the
  two reshapes cancel (`(n · 8192 + k) / 8192 = n`, `(n · 8192 + k) % 8192 = k`, and the middle coordinate of the
  three-axis index is `k / 128`). The activations `a` are whatever the program's first thirteen stages make of its
  first argument; they are left as that term.
-/
import proofs.«119801_j43353399885902_2_alg».proof.Proof.Gen.ReferenceIdeal.Read
import proofs.«119801_j43353399885902_2_alg».proof.Proof.QuantLinear

noncomputable section

open scoped BigOperators

namespace Cert.ReferenceIdeal.Linear

open Cert.ReferenceIdeal Cert.ReferenceIdeal.Gen Cert.ReferenceIdeal.Read Idealize.ShloMosaic Idealize.ShloMosaic.ValueIdx
open Cert.QuantLinear

/-- The contraction reads the activations at (r, k). -/
theorem act_index (i : S8x8192.Idx) (k : Fin 8192) : lidx_main_v19 i k = ix2 (i 0) k :=
  funext fun a => Fin.ext (by match a with | ⟨0, _⟩ => rfl | ⟨1, _⟩ => rfl)

/-- Through the two reshapes, the weight at (n, k) reads the code at (n, k). -/
theorem code_index (i : S8x8192.Idx) (k : Fin 8192) : idx_main_v13 (idx_main_v18 (ridx_main_v19 i k)) = ix2 (i 1) k :=
  funext fun a => Fin.ext (by
    have h1 : (i 1).val < 8192 := (i 1).isLt
    have hk : k.val < 8192 := k.isLt
    match a with
    | ⟨0, _⟩ =>
      show ((((i 1).val * 8192 + k.val) / 8192 * 64 + ((i 1).val * 8192 + k.val) / 128 % 64) * 128 + ((i 1).val * 8192 + k.val) % 128) / 8192 = (i 1).val
      omega
    | ⟨1, _⟩ =>
      show ((((i 1).val * 8192 + k.val) / 8192 * 64 + ((i 1).val * 8192 + k.val) / 128 % 64) * 128 + ((i 1).val * 8192 + k.val) % 128) % 8192 = k.val
      omega)

/-- Through the reshape and the two broadcasts, the weight at (n, k) reads the scale at (n, k / 128). -/
theorem scale_index (i : S8x8192.Idx) (k : Fin 8192) :
    idx_main_v15 (idx_main_v16 (idx_main_v18 (ridx_main_v19 i k))) = ix2 (i 1) (group k) :=
  funext fun a => Fin.ext (by
    have h1 : (i 1).val < 8192 := (i 1).isLt
    have hk : k.val < 8192 := k.isLt
    match a with
    | ⟨0, _⟩ =>
      show ((i 1).val * 8192 + k.val) / 8192 = (i 1).val
      omega
    | ⟨1, _⟩ =>
      show ((i 1).val * 8192 + k.val) / 128 % 64 = k.val / 128
      omega)

/-- Through the two broadcasts, the output at (r, n) reads the bias at n. -/
theorem bias_index (i : S8x8192.Idx) : idx_main_v20 (idx_main_v21 i) = ix1 (i 1) :=
  funext fun a => Fin.ext (by match a with | ⟨0, _⟩ => rfl)

/-- The reference's result, as a function of its activations stage and of the codes, scales and bias, is the layer. -/
theorem result_eq (x0 : (⟨S8x8192, .f32⟩ : BufTy).Contents (Elt Ideal)) (x1 : (⟨S8192x8192, .i32⟩ : BufTy).Contents (Elt Ideal))
    (x2 : (⟨S8192x64, .f32⟩ : BufTy).Contents (Elt Ideal)) (x3 : (⟨S8192, .f32⟩ : BufTy).Contents (Elt Ideal)) :
    val_main_v22 (F := Ideal) x0 x1 x2 x3 = linear (val_main_v12 (F := Ideal) x0) x1 x2 x3 := by
  funext i
  rw [val_main_v22_apply, val_main_v19_apply, val_main_v21_apply, val_main_v20_apply, bias_index]
  simp only [val_main_v18_apply, val_main_v17_apply, val_main_v14_apply, val_main_v13_apply, val_main_v16_apply,
    val_main_v15_apply, act_index, code_index, scale_index]
  rfl

end Cert.ReferenceIdeal.Linear

end
-- ==== Proof.Tile.lean ====
/-
  What the kernel body computes for one tile of 256 output features, read at one element.

  The body holds the whole activations block `x0` [8, 8192], a tile `x1` [256, 8192] of codes, the tile's scales
  `x2` [256, 64] and the tile's bias `x3` [1, 256]. It converts the codes, views them as [256, 64, 128] (feature k
  at group k / 128, position k % 128), multiplies by the scales broadcast along the position axis, views the product
  as [256, 8192] again, contracts the activations' feature axis against the weights' feature axis into a zero
  accumulator, and adds the bias broadcast over the 8 rows. The changes of float format in between are the identity
  on the extended reals. At the element (p, r) of the [8, 256] result this is

      (∑ k, x0[p, k] · (x1[r, k] · x2[r, k / 128])) + x3[0, r].
-/
import proofs.«119801_j43353399885902_2_alg».proof.Proof.Gen.KernelIdeal.Skeleton
import proofs.«119801_j43353399885902_2_alg».proof.Proof.QuantLinear
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx
open Cert.QuantLinear

/-- The activations as the contraction sees them: a same-shape view and a change of format, both the identity. -/
theorem act_apply (x0 : Vec Ideal S8x8192 .f32) (h : S8x8192.ShapeCasts S8x8192) (hb : FTy.bits .bf16 < FTy.bits .f32)
    (j : S8x8192.Idx) :
    (truncf .bf16 (shapeCast S8x8192 x0 h : FVec Ideal S8x8192 .f32) hb : FVec Ideal S8x8192 .bf16) j = x0 j := by
  rw [truncf_apply, shapeCast_self]

/-- The tile's dequantized weights at (r, k): the code at (r, k) times the scale at (r, k / 128). The index (r, k) of
    the [256, 8192] view is the index (r, k / 128, k % 128) of the [256, 64, 128] view, and the scales are constant
    along its last axis. -/
theorem weight_apply (x1 : Vec Ideal S256x8192 .i32) (x2 : Vec Ideal S256x64 .f32)
    (h1 : S256x8192.ShapeCasts S256x64x128) (h2 : S256x64.ShapeCasts S256x64x1) (h3 : S256x64x1.Broadcasts S256x64x128)
    (h4 : S256x64x128.ShapeCasts S256x8192) (hb : FTy.bits .bf16 < FTy.bits .f32) (r : Fin 256) (k : Fin 8192) :
    (truncf .bf16 (shapeCast S256x8192 (mulf (shapeCast S256x64x128 (sitofp .f32 x1 : FVec Ideal S256x8192 .f32) h1)
        (broadcastTo S256x64x128 (shapeCast S256x64x1 x2 h2) h3)) h4 : FVec Ideal S256x8192 .f32) hb
      : FVec Ideal S256x8192 .bf16) (ix2 r k)
      = FloatOps.sitofp (F := Ideal) .f32 (x1 (ix2 r k)) * x2 (ix2 r (group k)) := by
  have hr : r.val < 256 := r.isLt
  have hk : k.val < 8192 := k.isLt
  rw [truncf_apply]
  rw [shapeCast_apply _ h4 (ix2 r k) (ix3 r (group k) (lane k)) (by
    rw [Shape.rowMajor_val_three, Shape.rowMajor_val_two]
    show (r.val * 64 + k.val / 128) * 128 + k.val % 128 = r.val * 8192 + k.val
    omega)]
  rw [mulf_apply]
  rw [shapeCast_apply _ h1 (ix3 r (group k) (lane k)) (ix2 r k) (by
    rw [Shape.rowMajor_val_three, Shape.rowMajor_val_two]
    show r.val * 8192 + k.val = (r.val * 64 + k.val / 128) * 128 + k.val % 128
    omega)]
  rw [broadcastTo_apply _ h3 (ix3 r (group k) (lane k)) (ix3 r (group k) (0 : Fin 1)) (fun a => by
    match a with
    | ⟨0, _⟩ => show r.val = if (256 : Nat) = 1 then 0 else r.val; rw [if_neg (by decide)]
    | ⟨1, _⟩ => show k.val / 128 = if (64 : Nat) = 1 then 0 else k.val / 128; rw [if_neg (by decide)]
    | ⟨2, _⟩ => show 0 = if (1 : Nat) = 1 then 0 else k.val % 128; rw [if_pos rfl])]
  rw [shapeCast_apply _ h2 (ix3 r (group k) (0 : Fin 1)) (ix2 r (group k)) (by
    rw [Shape.rowMajor_val_three, Shape.rowMajor_val_two]
    show r.val * 64 + k.val / 128 = (r.val * 64 + k.val / 128) * 1 + 0
    omega)]
  rfl

/-- The tile's bias at (p, r): the bias row at (0, r), whatever the row p. -/
theorem bias_apply (x3 : Vec Ideal S1x256 .f32) (h : S1x256.ShapeCasts S1x256) (hb : S1x256.Broadcasts S8x256)
    (p : Fin 8) (r : Fin 256) :
    (broadcastTo S8x256 (shapeCast S1x256 x3 h : FVec Ideal S1x256 .f32) hb : FVec Ideal S8x256 .f32) (ix2 p r)
      = x3 (ix2 (0 : Fin 1) r) := by
  rw [broadcastTo_apply _ hb (ix2 p r) (ix2 (0 : Fin 1) r) (fun a => by
    match a with
    | ⟨0, _⟩ => show 0 = if (1 : Nat) = 1 then 0 else p.val; rw [if_pos rfl]
    | ⟨1, _⟩ => show r.val = if (256 : Nat) = 1 then 0 else r.val; rw [if_neg (by decide)])]
  rw [shapeCast_self]

/-- The contraction's left operand index at output (p, r) and feature q has row p … -/
theorem lhs_row (i : S8x256.Idx) (q : dot_S8x8192_S256x8192_S8x256_1_1_0_0_n_n.contr.Idx) :
    (dot_S8x8192_S256x8192_S8x256_1_1_0_0_n_n.lhsIdx i q 0).val = (i 0).val := by
  unfold DotDims.lhsIdx
  rw [dif_neg (show ¬(0 : Fin S8x8192.rank) ∈ dot_S8x8192_S256x8192_S8x256_1_1_0_0_n_n.lhsBatch by decide),
    dif_pos (show (0 : Fin S8x8192.rank) ∈ dot_S8x8192_S256x8192_S8x256_1_1_0_0_n_n.lhsNonContracting by decide)]
  rfl

/-- … and column q. -/
theorem lhs_feature (i : S8x256.Idx) (q : dot_S8x8192_S256x8192_S8x256_1_1_0_0_n_n.contr.Idx) :
    (dot_S8x8192_S256x8192_S8x256_1_1_0_0_n_n.lhsIdx i q 1).val = (q ⟨0, by decide⟩).val :=
  dot_S8x8192_S256x8192_S8x256_1_1_0_0_n_n.lhsIdx_val_of_single rfl i q

/-- Its right operand index has row r (the weights are contracted along their second axis, not transposed first) … -/
theorem rhs_row (i : S8x256.Idx) (q : dot_S8x8192_S256x8192_S8x256_1_1_0_0_n_n.contr.Idx) :
    (dot_S8x8192_S256x8192_S8x256_1_1_0_0_n_n.rhsIdx i q 0).val = (i 1).val := by
  unfold DotDims.rhsIdx
  rw [dif_neg (show ¬(0 : Fin S256x8192.rank) ∈ dot_S8x8192_S256x8192_S8x256_1_1_0_0_n_n.rhsBatch by decide),
    dif_pos (show (0 : Fin S256x8192.rank) ∈ dot_S8x8192_S256x8192_S8x256_1_1_0_0_n_n.rhsNonContracting by decide)]
  rfl

/-- … and column q. -/
theorem rhs_feature (i : S8x256.Idx) (q : dot_S8x8192_S256x8192_S8x256_1_1_0_0_n_n.contr.Idx) :
    (dot_S8x8192_S256x8192_S8x256_1_1_0_0_n_n.rhsIdx i q 1).val = (q ⟨0, by decide⟩).val :=
  dot_S8x8192_S256x8192_S8x256_1_1_0_0_n_n.rhsIdx_val_of_single rfl i q

/-- The contraction into a zero accumulator at (p, r): the sum over the 8192 features of the left operand at (p, k)
    times the right operand at (r, k). -/
theorem contract_apply (L : FVec Ideal S8x8192 .bf16) (R : FVec Ideal S256x8192 .bf16) (p : Fin 8) (r : Fin 256) :
    matmul dot_S8x8192_S256x8192_S8x256_1_1_0_0_n_n none L R (constant (F := Ideal) S8x256 .f32 0x00000000#32) (ix2 p r)
      = ∑ k : Fin 8192, L (ix2 p k) * R (ix2 r k) := by
  simp only [matmul]
  rw [Ideal.matmul_constant_zero_apply,
    ← Equiv.sum_comp (contrEquiv1 dot_S8x8192_S256x8192_S8x256_1_1_0_0_n_n 8192 rfl rfl).symm]
  refine Finset.sum_congr rfl fun k _ => ?_
  have hk := contrEquiv1_symm_val dot_S8x8192_S256x8192_S8x256_1_1_0_0_n_n 8192 rfl rfl k
  have el : dot_S8x8192_S256x8192_S8x256_1_1_0_0_n_n.lhsIdx (ix2 p r)
      ((contrEquiv1 dot_S8x8192_S256x8192_S8x256_1_1_0_0_n_n 8192 rfl rfl).symm k) = ix2 p k :=
    funext fun a => Fin.ext (by
      match a with
      | ⟨0, _⟩ => exact lhs_row _ _
      | ⟨1, _⟩ => exact (lhs_feature _ _).trans hk)
  have er : dot_S8x8192_S256x8192_S8x256_1_1_0_0_n_n.rhsIdx (ix2 p r)
      ((contrEquiv1 dot_S8x8192_S256x8192_S8x256_1_1_0_0_n_n 8192 rfl rfl).symm k) = ix2 r k :=
    funext fun a => Fin.ext (by
      match a with
      | ⟨0, _⟩ => exact rhs_row _ _
      | ⟨1, _⟩ => exact (rhs_feature _ _).trans hk)
  rw [el, er]

/-- THE TILE AT AN ELEMENT: row p of the activations against row r of the tile's dequantized weights, plus the tile's
    bias at r. -/
theorem payload_apply (x0 : Vec Ideal S8x8192 .f32) (x1 : Vec Ideal S256x8192 .i32) (x2 : Vec Ideal S256x64 .f32)
    (x3 : Vec Ideal S1x256 .f32) (p : Fin 8) (r : Fin 256) :
    k0_pay1 (F := Ideal) x0 x1 x2 x3 (ix2 p r)
      = (∑ k : Fin 8192, x0 (ix2 p k) * (FloatOps.sitofp (F := Ideal) .f32 (x1 (ix2 r k)) * x2 (ix2 r (group k))))
        + x3 (ix2 (0 : Fin 1) r) := by
  unfold k0_pay1
  rw [addf_apply, contract_apply, bias_apply]
  refine congrArg (· + _) (Finset.sum_congr rfl fun k _ => ?_)
  rw [act_apply, weight_apply]

/-- Row `r` of tile `s` is row `256 · s + r` of the whole array. -/
abbrev row (s : Nat) (hs : s < 32) (r : Fin 256) : Fin 8192 := ⟨s * 256 + r.val, by have := r.isLt; omega⟩

/-- TILE `s` OF THE LAYER. If the body's four blocks are the activations whole, rows `256 · s …` of the codes and of
    the scales, and columns `256 · s …` of the bias row, then what the body computes at the element `y` of its tile is
    the layer at the array index `i` with the same row and with column `256 · s + y 1`. -/
theorem tile_eq (A : S8x8192.Idx → EReal) (Q : S8192x8192.Idx → BitVec 32) (SC : S8192x64.Idx → EReal) (B : S1x8192.Idx → EReal)
    (x0 : Vec Ideal S8x8192 .f32) (x1 : Vec Ideal S256x8192 .i32) (x2 : Vec Ideal S256x64 .f32) (x3 : Vec Ideal S1x256 .f32)
    (s : Nat) (hs : s < 32)
    (h0 : ∀ (p : Fin 8) (k : Fin 8192), x0 (ix2 p k) = A (ix2 p k))
    (h1 : ∀ (r : Fin 256) (k : Fin 8192), x1 (ix2 r k) = Q (ix2 (row s hs r) k))
    (h2 : ∀ (r : Fin 256) (g : Fin 64), x2 (ix2 r g) = SC (ix2 (row s hs r) g))
    (h3 : ∀ r : Fin 256, x3 (ix2 (0 : Fin 1) r) = B (ix2 (0 : Fin 1) (row s hs r)))
    (y : S8x256.Idx) (i : S8x8192.Idx) (hi0 : (i 0).val = (y 0).val) (hi1 : (i 1).val = s * 256 + (y 1).val) :
    k0_pay1 (F := Ideal) x0 x1 x2 x3 y = linear A Q SC (fun j => B (ix2 (0 : Fin 1) (j 0))) i := by
  obtain ⟨p, r, rfl⟩ : ∃ (p : Fin 8) (r : Fin 256), y = ix2 p r := ⟨y 0, y 1, eq_ix2 y⟩
  obtain rfl : i = ix2 p (row s hs r) := funext fun a => Fin.ext (by
    match a with
    | ⟨0, _⟩ => exact hi0
    | ⟨1, _⟩ => exact hi1)
  rw [payload_apply]
  unfold linear weight
  simp only [h0, h1, h2, h3]

end Cert.KernelIdeal.Tile

end
-- ==== Proof.Entry.lean ====
/-
  What the kernel's region finds in the two arrays the host operations before it write.

  The activations array is the first argument after a per-row symmetric quantization: each row is divided by its
  scale (the row's largest magnitude over 127, floored at a small constant), rounded to the nearest integer, clipped
  to [-127, 127] and multiplied by the scale again. The reference applies the very same thirteen operations to its
  first argument, so the array is the reference's activations stage of the kernel's first argument; the
  operations are never opened. The bias row is the bias viewed as [1, 8192]: its entry (0, n) is the bias at n.
-/
import proofs.«119801_j43353399885902_2_alg».proof.Proof.Gen.KernelIdeal.Frame
import proofs.«119801_j43353399885902_2_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The activations array at region entry is the reference's activations stage of the first argument. -/
theorem activations (c : Dev nD) :
    (V m c main_v12 : S8x8192.Idx → EReal)
      = Cert.ReferenceIdeal.Read.val_main_v12 (F := Ideal) (m ((c : Thread nD τ).loc main_arg0)) := by
  dsimp only [V]
  simp only [hostOps0, hostOps0_1, hostOps0_2, hostOps0_3, hostOps0_4, List.flatten_cons, List.flatten_nil,
    List.append_nil, List.cons_append, List.nil_append]
  after_results
  rfl

/-- The bias row at region entry is the bias argument viewed as [1, 8192]. -/
theorem bias_row (c : Dev nD) :
    (V m c main_v13 : S1x8192.Idx → EReal)
      = shapeCast S1x8192 (m ((c : Thread nD τ).loc main_arg3) : S8192.Idx → EReal) shapeCasts_S8192_S1x8192 := by
  dsimp only [V]
  simp only [hostOps0, hostOps0_1, hostOps0_2, hostOps0_3, hostOps0_4, List.flatten_cons, List.flatten_nil,
    List.append_nil, List.cons_append, List.nil_append]
  after_results
  rfl

/-- Its entry (0, n) is the bias at n. -/
theorem bias_row_apply (c : Dev nD) (n : Fin 8192) :
    (V m c main_v13 : S1x8192.Idx → EReal) (ix2 (0 : Fin 1) n)
      = (m ((c : Thread nD τ).loc main_arg3) : S8192.Idx → EReal) (ix1 n) := by
  rw [bias_row]
  exact shapeCast_apply _ shapeCasts_S8192_S1x8192 (ix2 (0 : Fin 1) n) (ix1 n) (by
    rw [Shape.rowMajor_val_one, Shape.rowMajor_val_two]
    show n.val = 0 * 8192 + n.val
    omega)

end Cert.KernelIdeal.Entry

end
-- ==== Proof.Whole.lean ====
/-
  From the 32 tiles to the whole result array.

  The grid has 32 points; point `t` holds the whole activations, rows `256 · t … 256 · t + 255` of the codes and of
  the scales, columns `256 · t …` of the bias row, and writes back columns `256 · t … 256 · t + 255` of the [8, 8192]
  result. By `Tile.tile_eq` what it writes back is that block of the layer (`QuantLinear.linear`) of the arrays as the
  region finds them. Every column `n` lies in the block of point `n / 256`, so the blocks cover the result array,
  which therefore ends holding the layer. The arrays the region finds are the arguments themselves (codes, scales),
  the host's activations stage of the first argument, and the bias viewed as a row (`Entry.lean`).
-/
import proofs.«119801_j43353399885902_2_alg».proof.Proof.Gen.KernelIdeal.Value
import proofs.«119801_j43353399885902_2_alg».proof.Proof.Tile
import proofs.«119801_j43353399885902_2_alg».proof.Proof.Entry

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.QuantLinear Cert.KernelIdeal.Tile

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at point `t`: the activations always at (0, 0); codes and scales at row block
    `t`; bias row and result at column block `t`. Decided over the 32 points. -/
theorem block_index : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

theorem point_lt (t : Fin cfg0.N) : t.val < 32 := lt_of_lt_of_eq t.isLt N_0

/-- The layer of the arrays as the region finds them. -/
abbrev layer (c : Dev nD) : S8x8192.Idx → EReal :=
  linear (V m c main_v12) (V m c main_arg1) (V m c main_arg2) (fun j => (V m c main_v13 : S1x8192.Idx → EReal) (ix2 (0 : Fin 1) (j 0)))

/-- WHAT POINT `t` WRITES BACK is block `t` of the layer. -/
theorem flushed_eq (c : Dev nD) (t : Fin cfg0.N) :
    (dats m 0 c).flushed 4 t = ((cfg0.win 4).blk t).view.read (Elt Ideal) (layer m c) := by
  rw [flushed4]
  unfold out0_4
  rw [View.canon_unit_zero zero_offsets]
  simp only [View.ld_unit_zero (S := S8x8192) zero_offsets, View.ld_unit_zero (S := S256x8192) zero_offsets,
    View.ld_unit_zero (S := S256x64) zero_offsets, View.ld_unit_zero (S := S1x256) zero_offsets]
  obtain ⟨e00, e01, e10, e11, e20, e21, e30, e31, e40, e41⟩ := block_index t
  have ht := point_lt t
  funext y
  show k0_pay1 (iblk m c 0 t) (iblk m c 1 t) (iblk m c 2 t) (iblk m c 3 t) y = layer m c (((cfg0.win 4).blk t).view.emb y)
  refine tile_eq (V m c main_v12) (V m c main_arg1) (V m c main_arg2) (V m c main_v13) _ _ _ _ t.val ht
    (fun p k => ?_) (fun r k => ?_) (fun r g => ?_) (fun r => ?_) y _ ?_ ?_
  · show V m c main_v12 (((cfg0.win 0).blk t).view.emb (ix2 p k)) = V m c main_v12 (ix2 p k)
    refine congrArg _ (funext fun a => Fin.ext ?_)
    match a with
    | ⟨0, _⟩ => show win0_0.index t (0 : Fin 2) * 8 + 1 * p.val = p.val; omega
    | ⟨1, _⟩ => show win0_0.index t (1 : Fin 2) * 8192 + 1 * k.val = k.val; omega
  · show V m c main_arg1 (((cfg0.win 1).blk t).view.emb (ix2 r k)) = V m c main_arg1 (ix2 (row t.val ht r) k)
    refine congrArg _ (funext fun a => Fin.ext ?_)
    match a with
    | ⟨0, _⟩ => show win0_1.index t (0 : Fin 2) * 256 + 1 * r.val = t.val * 256 + r.val; omega
    | ⟨1, _⟩ => show win0_1.index t (1 : Fin 2) * 8192 + 1 * k.val = k.val; omega
  · show V m c main_arg2 (((cfg0.win 2).blk t).view.emb (ix2 r g)) = V m c main_arg2 (ix2 (row t.val ht r) g)
    refine congrArg _ (funext fun a => Fin.ext ?_)
    match a with
    | ⟨0, _⟩ => show win0_2.index t (0 : Fin 2) * 256 + 1 * r.val = t.val * 256 + r.val; omega
    | ⟨1, _⟩ => show win0_2.index t (1 : Fin 2) * 64 + 1 * g.val = g.val; omega
  · show V m c main_v13 (((cfg0.win 3).blk t).view.emb (ix2 (0 : Fin 1) r)) = V m c main_v13 (ix2 (0 : Fin 1) (row t.val ht r))
    refine congrArg _ (funext fun a => Fin.ext ?_)
    match a with
    | ⟨0, _⟩ => show win0_3.index t (0 : Fin 2) * 1 + 1 * 0 = 0; omega
    | ⟨1, _⟩ => show win0_3.index t (1 : Fin 2) * 256 + 1 * r.val = t.val * 256 + r.val; omega
  · show win0_4.index t (0 : Fin 2) * 8 + 1 * (y 0).val = (y 0).val; omega
  · show win0_4.index t (1 : Fin 2) * 256 + 1 * (y 1).val = t.val * 256 + (y 1).val; omega

/-- An index of the result array is in point `t`'s block iff each coordinate is in the block's range on its axis. -/
theorem mem_block (t : Fin cfg0.N) (i : S8x8192.Idx) :
    i ∈ ((cfg0.win 4).blk t).view.set ↔ ∀ a : Fin 2, win0_4.index t a * S8x256.size a ≤ (i a).val
      ∧ (i a).val < win0_4.index t a * S8x256.size a + S8x256.size a := by
  show i ∈ ((View.whole main_v14).slice (win0_4.rect t)).set ↔ _
  rw [View.set_slice_whole, Rect.mem_set_unit]
  exact Iff.rfl

/-- Column `n` is in the block of point `n / 256`: the blocks cover the result array. -/
theorem cover (i : S8x8192.Idx) : ∃ t : Fin cfg0.N, (cfg0.win 4).flush t = true ∧ i ∈ ((cfg0.win 4).blk t).view.set := by
  have h0 : (i 0).val < 8 := (i 0).isLt
  have h1 : (i 1).val < 8192 := (i 1).isLt
  refine ⟨⟨(i 1).val / 256, by rw [show cfg0.N = 32 from N_0]; omega⟩, flush0_4 _, ?_⟩
  obtain ⟨-, -, -, -, -, -, -, -, e40, e41⟩ := block_index ⟨(i 1).val / 256, by rw [show cfg0.N = 32 from N_0]; omega⟩
  rw [mem_block]
  intro a
  match a with
  | ⟨0, _⟩ =>
    show win0_4.index _ (0 : Fin 2) * 8 ≤ (i 0).val ∧ (i 0).val < win0_4.index _ (0 : Fin 2) * 8 + 8
    rw [e40]; omega
  | ⟨1, _⟩ =>
    show win0_4.index _ (1 : Fin 2) * 256 ≤ (i 1).val ∧ (i 1).val < win0_4.index _ (1 : Fin 2) * 256 + 256
    rw [e41]; show (i 1).val / 256 * 256 ≤ (i 1).val ∧ (i 1).val < (i 1).val / 256 * 256 + 256; omega

/-- THE RESULT ARRAY after the run is the layer of the arrays as the region finds them. -/
theorem final (c : Dev nD) : (dats m 0 c).arrAt 4 cfg0.N = layer m c :=
  (dats m 0 c).arrAt_eq_of_cover 4 (layer m c) (fun t _ => flushed_eq m c t) cover

/-- … which is the layer of the host's activations stage of the first argument and of the other three arguments. -/
theorem layer_eq (c : Dev nD) :
    layer m c = linear (Cert.ReferenceIdeal.Read.val_main_v12 (F := Ideal) (m ((c : Thread nD τ).loc main_arg0)))
      (m ((c : Thread nD τ).loc main_arg1)) (m ((c : Thread nD τ).loc main_arg2)) (m ((c : Thread nD τ).loc main_arg3)) := by
  funext i
  unfold layer linear
  rw [Entry.activations m c, V_main_arg1 m c, V_main_arg2 m c]
  exact congrArg (_ + ·) (Entry.bias_row_apply m c (i 1))

/-- The kernel's run: the result array at the layer, the arguments unchanged. -/
theorem run : θ_run defs (onTc (τ := τ) (main (F := Ideal))) ⟨m, fun _ => 0, ρ⟩ fun r => ∀ c : Dev nD,
      r.2.mem ((c : Thread nD τ).loc main_v14)
        = linear (Cert.ReferenceIdeal.Read.val_main_v12 (F := Ideal) (m ((c : Thread nD τ).loc main_arg0)))
            (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (layer_eq m c)), (h c).2⟩)
    (run_blocks m ρ)

end Cert.KernelIdeal.Whole

end
-- ==== Proof.lean ====
/-
  A linear layer with group-quantized weights: the tiled kernel against the plain reference, on the extended reals.

  Both programs first quantize the activations row by row on the host, by the same thirteen operations with the same
  constants; call the result `a`. With integer codes `q[n, k]`, one scale `sc[n, k / 128]` per output feature and
  group of 128 input features, and a bias `b[n]`, both then compute

      out[r, n] = (∑ k, a[r, k] · (q[n, k] · sc[n, k / 128])) + b[n]      (`QuantLinear.linear`).

  The reference does so in one contraction over whole arrays (`RefLinear.lean`). The kernel walks 32 tiles of 256
  output features, each tile contracting the whole feature axis into a zero accumulator (`Tile.lean`), and the tiles'
  blocks cover the result (`Whole.lean`); the arrays the kernel's region reads are the arguments and the host's
  activations and bias row (`Entry.lean`). Changes of float format are the identity on the extended reals and a
  contraction is one sum whatever its tiling, so the two results are the same function of the arguments; no law that
  needs finite values is used, and the precondition is never opened. The idealized kernel is the kernel's own text
  read on the extended reals (no rewrite was applied), so that conjunct is trivial. The three programs' runs
  (termination, no fault, arguments unchanged) are the generated frames and the reference's generated run.
-/
import proofs.«119801_j43353399885902_2_alg».proof.Defs
import proofs.«119801_j43353399885902_2_alg».proof.Proof.Gen.Kernel
import proofs.«119801_j43353399885902_2_alg».proof.Proof.Gen.Kernel.Skeleton
import proofs.«119801_j43353399885902_2_alg».proof.Proof.Gen.Kernel.Launch
import proofs.«119801_j43353399885902_2_alg».proof.Proof.Gen.Kernel.Points
import proofs.«119801_j43353399885902_2_alg».proof.Proof.Gen.Kernel.Frame
import proofs.«119801_j43353399885902_2_alg».proof.Proof.Gen.KernelIdeal
import proofs.«119801_j43353399885902_2_alg».proof.Proof.Gen.KernelIdeal.Skeleton
import proofs.«119801_j43353399885902_2_alg».proof.Proof.Gen.KernelIdeal.Launch
import proofs.«119801_j43353399885902_2_alg».proof.Proof.Gen.KernelIdeal.Points
import proofs.«119801_j43353399885902_2_alg».proof.Proof.Gen.KernelIdeal.Frame
import proofs.«119801_j43353399885902_2_alg».proof.Proof.Gen.ReferenceIdeal
import proofs.«119801_j43353399885902_2_alg».proof.Proof.Gen.KernelIdeal.Value
import proofs.«119801_j43353399885902_2_alg».proof.Proof.Gen.ReferenceIdeal.Run
import proofs.«119801_j43353399885902_2_alg».proof.Proof.Gen.ReferenceIdeal.Read
import proofs.«119801_j43353399885902_2_alg».proof.Proof.Gen.Pre_finite_inputs
import proofs.«119801_j43353399885902_2_alg».proof.Proof.QuantLinear
import proofs.«119801_j43353399885902_2_alg».proof.Proof.RefLinear
import proofs.«119801_j43353399885902_2_alg».proof.Proof.Tile
import proofs.«119801_j43353399885902_2_alg».proof.Proof.Entry
import proofs.«119801_j43353399885902_2_alg».proof.Proof.Whole
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories agreeing on the arguments, the kernel's result array and the reference's both end at the layer of
    the arguments, with the host's quantized activations in the first place. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.Linear.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
